-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S4x256x512 : Shape := ⟨3, ![4, 256, 512]⟩
abbrev S4x512 : Shape := ⟨2, ![4, 512]⟩
abbrev S4x512x512 : Shape := ⟨3, ![4, 512, 512]⟩
abbrev S4x512x1 : Shape := ⟨3, ![4, 512, 1]⟩
abbrev S4x1 : Shape := ⟨2, ![4, 1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S4x512x1 : S_.BroadcastsInDim S4x512x1 (![] : Fin 0 → Fin S4x512x1.rank)
  reducesTo_S4x512x1_S_d0_1_2 : S4x512x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg5 : FVec F S4x512 .f32) (main_arg6 : FVec F S4x512x1 .f32) (main_arg7 : FVec F S4x1 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg5
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512x1 .f32 := Host.absf main_arg6
  let main_cst_8 : FVec F S_ .f32 := constant S_ .f32 0x7F800000#32
  let main_v25 : FVec F S4x512x1 .f32 := broadcastInDim S4x512x1 ![] bcast_S_S4x512x1 main_cst_8
  let main_v26 : IVec S4x512x1 1 := cmpf .olt main_v24 main_v25
  let main_c_9 : IVec S_ 1 := constantI S_ 1 1#1
  let main_v27 : IVec S_ 1 := (fun x v => Host.reduce IntOp.andi x v reducesTo_S4x512x1_S_d0_1_2 h_S_) main_v26 main_c_9
  let main_v28 : IVec S_ 1 := andi main_v23 main_v27
  let main_v29 : FVec F S4x1 .f32 := Host.absf main_arg7
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  main_v33

def fn {F : FTy → Type} [FloatOps F] (main_arg0 : FVec F S65536x256 .f32) (main_arg1 : IVec S65536 32) (main_arg2 : FVec F S4x256x512 .f32) (main_arg3 : FVec F S4x512 .f32) (main_arg4 : FVec F S4x512x512 .f32) (main_arg5 : FVec F S4x512 .f32) (main_arg6 : FVec F S4x512x1 .f32) (main_arg7 : FVec F S4x1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S4x256x512 .f32 := Host.absf main_arg2
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  let main_c_1 : IVec S_ 1 := constantI S_ 1 1#1
  let main_v7 : IVec S_ 1 := (fun x v => Host.reduce IntOp.andi x v reducesTo_S4x256x512_S_d0_1_2 h_S_) main_v6 main_c_1
  let main_v8 : IVec S_ 1 := andi main_v3 main_v7
  let main_v9 : FVec F S4x512 .f32 := Host.absf main_arg3
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4x512x512 .f32 := Host.absf main_arg4
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg5 main_arg6 main_arg7 main_v13 main_v16
-- ==== Kernel.lean ====
abbrev S65536x256 : Shape := ⟨2, ![65536, 256]⟩
abbrev S65536 : Shape := ⟨1, ![65536]⟩
abbrev S4x256x512 : Shape := ⟨3, ![4, 256, 512]⟩
abbrev S4x512 : Shape := ⟨2, ![4, 512]⟩
abbrev S4x512x512 : Shape := ⟨3, ![4, 512, 512]⟩
abbrev S4x512x1 : Shape := ⟨3, ![4, 512, 1]⟩
abbrev S4x1 : Shape := ⟨2, ![4, 1]⟩
abbrev S65536x1 : Shape := ⟨2, ![65536, 1]⟩
abbrev S1024x256 : Shape := ⟨2, ![1024, 256]⟩
abbrev S1024x1 : Shape := ⟨2, ![1024, 1]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S1024x512 : Shape := ⟨2, ![1024, 512]⟩
abbrev S1x512x512 : Shape := ⟨3, ![1, 512, 512]⟩
abbrev S512x512 : Shape := ⟨2, ![512, 512]⟩
abbrev S1x512x1 : Shape := ⟨3, ![1, 512, 1]⟩
abbrev S512x1 : Shape := ⟨2, ![512, 1]⟩
abbrev S1x1 : Shape := ⟨2, ![1, 1]⟩
abbrev S1 : Shape := ⟨1, ![1]⟩

abbrev nBuf : Space → Nat
  | .hbm => 10
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536, .i32⟩
  | .hbm, ⟨2, _⟩ => ⟨S4x256x512, .f32⟩
  | .hbm, ⟨3, _⟩ => ⟨S4x512, .f32⟩
  | .hbm, ⟨4, _⟩ => ⟨S4x512x512, .f32⟩
  | .hbm, ⟨5, _⟩ => ⟨S4x512, .f32⟩
  | .hbm, ⟨6, _⟩ => ⟨S4x512x1, .f32⟩
  | .hbm, ⟨7, _⟩ => ⟨S4x1, .f32⟩
  | .hbm, ⟨8, _⟩ => ⟨S65536x1, .i32⟩
  | .hbm, ⟨9, _⟩ => ⟨S65536x1, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S4x256x512, .f32⟩
  | .local _ .vmem, ⟨5, _⟩ => ⟨S4x512, .f32⟩
  | .local _ .vmem, ⟨6, _⟩ => ⟨S4x512x512, .f32⟩
  | .local _ .vmem, ⟨7, _⟩ => ⟨S4x512, .f32⟩
  | .local _ .vmem, ⟨8, _⟩ => ⟨S4x512x1, .f32⟩
  | .local _ .vmem, ⟨9, _⟩ => ⟨S4x1, .f32⟩
  | .local _ .vmem, ⟨10, _⟩ => ⟨S1024x1, .f32⟩
  | .local _ .vmem, ⟨11, _⟩ => ⟨S1024x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S65536_S65536x1 : S65536.ShapeCasts S65536x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512x1_S1x512x1_0_0_0 : ∀ a, (![0, 0, 0] : Fin 3 → Nat) a + S1x512x1.size a ≤ S4x512x1.size a
  h_S1x512x1 : 0 < S1x512x1.numel
  shapeCasts_S1x512x1_S512x1 : S1x512x1.ShapeCasts S512x1
  inb_S4x1_S1x1_0_0 : ∀ a, (![0, 0] : Fin 2 → Nat) a + S1x1.size a ≤ S4x1.size a
  h_S1x1 : 0 < S1x1.numel
  shapeCasts_S1x1_S1 : S1x1.ShapeCasts S1
  shapeCasts_S1_S1x1 : S1.ShapeCasts S1x1
  broadcasts_S1x1_S1024x1 : S1x1.Broadcasts S1024x1
  inb_S4x256x512_S1x256x512_1_0_0 : ∀ a, (![1, 0, 0] : Fin 3 → Nat) a + S1x256x512.size a ≤ S4x256x512.size a
  inb_S4x512_S1x512_1_0 : ∀ a, (![1, 0] : Fin 2 → Nat) a + S1x512.size a ≤ S4x512.size a
  inb_S4x512x512_S1x512x512_1_0_0 : ∀ a, (![1, 0, 0] : Fin 3 → Nat) a + S1x512x512.size a ≤ S4x512x512.size a
  inb_S4x512x1_S1x512x1_1_0_0 : ∀ a, (![1, 0, 0] : Fin 3 → Nat) a + S1x512x1.size a ≤ S4x512x1.size a
  inb_S4x1_S1x1_1_0 : ∀ a, (![1, 0] : Fin 2 → Nat) a + S1x1.size a ≤ S4x1.size a
  inb_S4x256x512_S1x256x512_2_0_0 : ∀ a, (![2, 0, 0] : Fin 3 → Nat) a + S1x256x512.size a ≤ S4x256x512.size a
  inb_S4x512_S1x512_2_0 : ∀ a, (![2, 0] : Fin 2 → Nat) a + S1x512.size a ≤ S4x512.size a
  inb_S4x512x512_S1x512x512_2_0_0 : ∀ a, (![2, 0, 0] : Fin 3 → Nat) a + S1x512x512.size a ≤ S4x512x512.size a
  inb_S4x512x1_S1x512x1_2_0_0 : ∀ a, (![2, 0, 0] : Fin 3 → Nat) a + S1x512x1.size a ≤ S4x512x1.size a
  inb_S4x1_S1x1_2_0 : ∀ a, (![2, 0] : Fin 2 → Nat) a + S1x1.size a ≤ S4x1.size a
  inb_S4x256x512_S1x256x512_3_0_0 : ∀ a, (![3, 0, 0] : Fin 3 → Nat) a + S1x256x512.size a ≤ S4x256x512.size a
  inb_S4x512_S1x512_3_0 : ∀ a, (![3, 0] : Fin 2 → Nat) a + S1x512.size a ≤ S4x512.size a
  inb_S4x512x512_S1x512x512_3_0_0 : ∀ a, (![3, 0, 0] : Fin 3 → Nat) a + S1x512x512.size a ≤ S4x512x512.size a
  inb_S4x512x1_S1x512x1_3_0_0 : ∀ a, (![3, 0, 0] : Fin 3 → Nat) a + S1x512x1.size a ≤ S4x512x1.size a
  inb_S4x1_S1x1_3_0 : ∀ a, (![3, 0] : Fin 2 → Nat) a + S1x1.size a ≤ S4x1.size a
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x512.size a ≤ S4x256x512.size a
  hwx0_2 : ∀ i : grid0.Coords, EltTy.bits .f32 = 32 ∨ (Rect.block (s := S4x256x512) S4x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .f32 = 32 ∨ (Rect.block (s := S4x512) S4x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512x512.size a ≤ S4x512x512.size a
  hwx0_4 : ∀ i : grid0.Coords, EltTy.bits .f32 = 32 ∨ (Rect.block (s := S4x512x512) S4x512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x512.size a
  hwx0_5 : ∀ i : grid0.Coords, EltTy.bits .f32 = 32 ∨ (Rect.block (s := S4x512) S4x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x512x1.size a ≤ S4x512x1.size a
  hwx0_6 : ∀ i : grid0.Coords, EltTy.bits .f32 = 32 ∨ (Rect.block (s := S4x512x1) S4x512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1.size a ≤ S4x1.size a
  hwx0_7 : ∀ i : grid0.Coords, EltTy.bits .f32 = 32 ∨ (Rect.block (s := S4x1) S4x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S65536x1.size a
  hwx0_8 : ∀ i : grid0.Coords, EltTy.bits .f32 = 32 ∨ (Rect.block (s := S65536x1) S1024x1.size (cc0_transform_8 i) (hinb0_8 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536 : Shape := ⟨1, ![65536]⟩
abbrev S4x256x512 : Shape := ⟨3, ![4, 256, 512]⟩
abbrev S4x512 : Shape := ⟨2, ![4, 512]⟩
abbrev S4x512x512 : Shape := ⟨3, ![4, 512, 512]⟩
abbrev S4x512x1 : Shape := ⟨3, ![4, 512, 1]⟩
abbrev S4x1 : Shape := ⟨2, ![4, 1]⟩
abbrev S_ : Shape := ⟨0, ![]⟩
abbrev S65536x1 : Shape := ⟨2, ![65536, 1]⟩
abbrev S1x256x512 : Shape := ⟨3, ![1, 256, 512]⟩
abbrev S256x512 : Shape := ⟨2, ![256, 512]⟩
abbrev S65536x512 : Shape := ⟨2, ![65536, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x512x1 : Shape := ⟨3, ![1, 512, 1]⟩
abbrev S512x1 : Shape := ⟨2, ![512, 1]⟩
abbrev S1x1 : Shape := ⟨2, ![1, 1]⟩
abbrev S1 : Shape := ⟨1, ![1]⟩

abbrev nBuf : Space → Nat
  | .hbm => 134
  | .vmem => 0
  | .smem => 0
  | _ => 0

abbrev hbmTy0_0 (i : Nat) : BufTy := match i % 128 with
  | 0 => ⟨S65536x256, .f32⟩
  | 1 => ⟨S65536, .i32⟩
  | 2 => ⟨S4x256x512, .f32⟩
  | 3 => ⟨S4x512, .f32⟩
  | 4 => ⟨S4x512x512, .f32⟩
  | 5 => ⟨S4x512, .f32⟩
  | 6 => ⟨S4x512x1, .f32⟩
  | 7 => ⟨S4x1, .f32⟩
  | 8 => ⟨S_, .f32⟩
  | 9 => ⟨S65536x1, .f32⟩
  | 10 => ⟨S1x256x512, .f32⟩
  | 11 => ⟨S256x512, .f32⟩
  | 12 => ⟨S65536x512, .f32⟩
  | 13 => ⟨S1x512, .f32⟩
  | 14 => ⟨S512, .f32⟩
  | 15 => ⟨S1x512, .f32⟩
  | 16 => ⟨S65536x512, .f32⟩
  | 17 => ⟨S65536x512, .f32⟩
  | 18 => ⟨S65536x512, .f32⟩
  | 19 => ⟨S1x512x512, .f32⟩
  | 20 => ⟨S512x512, .f32⟩
  | 21 => ⟨S65536x512, .f32⟩
  | 22 => ⟨S1x512, .f32⟩
  | 23 => ⟨S512, .f32⟩
  | 24 => ⟨S1x512, .f32⟩
  | 25 => ⟨S65536x512, .f32⟩
  | 26 => ⟨S65536x512, .f32⟩
  | 27 => ⟨S65536x512, .f32⟩
  | 28 => ⟨S1x512x1, .f32⟩
  | 29 => ⟨S512x1, .f32⟩
  | 30 => ⟨S65536x1, .f32⟩
  | 31 => ⟨S1x1, .f32⟩
  | 32 => ⟨S1, .f32⟩
  | 33 => ⟨S1x1, .f32⟩
  | 34 => ⟨S65536x1, .f32⟩
  | 35 => ⟨S65536x1, .f32⟩
  | 36 => ⟨S_, .i32⟩
  | 37 => ⟨S65536, .i32⟩
  | 38 => ⟨S65536, .i1⟩
  | 39 => ⟨S65536x1, .i1⟩
  | 40 => ⟨S65536x1, .f32⟩
  | 41 => ⟨S1x256x512, .f32⟩
  | 42 => ⟨S256x512, .f32⟩
  | 43 => ⟨S65536x512, .f32⟩
  | 44 => ⟨S1x512, .f32⟩
  | 45 => ⟨S512, .f32⟩
  | 46 => ⟨S1x512, .f32⟩
  | 47 => ⟨S65536x512, .f32⟩
  | 48 => ⟨S65536x512, .f32⟩
  | 49 => ⟨S65536x512, .f32⟩
  | 50 => ⟨S1x512x512, .f32⟩
  | 51 => ⟨S512x512, .f32⟩
  | 52 => ⟨S65536x512, .f32⟩
  | 53 => ⟨S1x512, .f32⟩
  | 54 => ⟨S512, .f32⟩
  | 55 => ⟨S1x512, .f32⟩
  | 56 => ⟨S65536x512, .f32⟩
  | 57 => ⟨S65536x512, .f32⟩
  | 58 => ⟨S65536x512, .f32⟩
  | 59 => ⟨S1x512x1, .f32⟩
  | 60 => ⟨S512x1, .f32⟩
  | 61 => ⟨S65536x1, .f32⟩
  | 62 => ⟨S1x1, .f32⟩
  | 63 => ⟨S1, .f32⟩
  | 64 => ⟨S1x1, .f32⟩
  | 65 => ⟨S65536x1, .f32⟩
  | 66 => ⟨S65536x1, .f32⟩
  | 67 => ⟨S_, .i32⟩
  | 68 => ⟨S65536, .i32⟩
  | 69 => ⟨S65536, .i1⟩
  | 70 => ⟨S65536x1, .i1⟩
  | 71 => ⟨S65536x1, .f32⟩
  | 72 => ⟨S1x256x512, .f32⟩
  | 73 => ⟨S256x512, .f32⟩
  | 74 => ⟨S65536x512, .f32⟩
  | 75 => ⟨S1x512, .f32⟩
  | 76 => ⟨S512, .f32⟩
  | 77 => ⟨S1x512, .f32⟩
  | 78 => ⟨S65536x512, .f32⟩
  | 79 => ⟨S65536x512, .f32⟩
  | 80 => ⟨S65536x512, .f32⟩
  | 81 => ⟨S1x512x512, .f32⟩
  | 82 => ⟨S512x512, .f32⟩
  | 83 => ⟨S65536x512, .f32⟩
  | 84 => ⟨S1x512, .f32⟩
  | 85 => ⟨S512, .f32⟩
  | 86 => ⟨S1x512, .f32⟩
  | 87 => ⟨S65536x512, .f32⟩
  | 88 => ⟨S65536x512, .f32⟩
  | 89 => ⟨S65536x512, .f32⟩
  | 90 => ⟨S1x512x1, .f32⟩
  | 91 => ⟨S512x1, .f32⟩
  | 92 => ⟨S65536x1, .f32⟩
  | 93 => ⟨S1x1, .f32⟩
  | 94 => ⟨S1, .f32⟩
  | 95 => ⟨S1x1, .f32⟩
  | 96 => ⟨S65536x1, .f32⟩
  | 97 => ⟨S65536x1, .f32⟩
  | 98 => ⟨S_, .i32⟩
  | 99 => ⟨S65536, .i32⟩
  | 100 => ⟨S65536, .i1⟩
  | 101 => ⟨S65536x1, .i1⟩
  | 102 => ⟨S65536x1, .f32⟩
  | 103 => ⟨S1x256x512, .f32⟩
  | 104 => ⟨S256x512, .f32⟩
  | 105 => ⟨S65536x512, .f32⟩
  | 106 => ⟨S1x512, .f32⟩
  | 107 => ⟨S512, .f32⟩
  | 108 => ⟨S1x512, .f32⟩
  | 109 => ⟨S65536x512, .f32⟩
  | 110 => ⟨S65536x512, .f32⟩
  | 111 => ⟨S65536x512, .f32⟩
  | 112 => ⟨S1x512x512, .f32⟩
  | 113 => ⟨S512x512, .f32⟩
  | 114 => ⟨S65536x512, .f32⟩
  | 115 => ⟨S1x512, .f32⟩
  | 116 => ⟨S512, .f32⟩
  | 117 => ⟨S1x512, .f32⟩
  | 118 => ⟨S65536x512, .f32⟩
  | 119 => ⟨S65536x512, .f32⟩
  | 120 => ⟨S65536x512, .f32⟩
  | 121 => ⟨S1x512x1, .f32⟩
  | 122 => ⟨S512x1, .f32⟩
  | 123 => ⟨S65536x1, .f32⟩
  | 124 => ⟨S1x1, .f32⟩
  | 125 => ⟨S1, .f32⟩
  | 126 => ⟨S1x1, .f32⟩
  | 127 => ⟨S65536x1, .f32⟩
  | _ => ⟨S65536x256, .f32⟩

abbrev hbmTy0_1 (i : Nat) : BufTy := match i % 128 with
  | 0 => ⟨S65536x1, .f32⟩
  | 1 => ⟨S_, .i32⟩
  | 2 => ⟨S65536, .i32⟩
  | 3 => ⟨S65536, .i1⟩
  | 4 => ⟨S65536x1, .i1⟩
  | 5 => ⟨S65536x1, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c_0 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_c_1 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_c_2 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  slices_S4x256x512_S1x256x512_0_0_0 : S4x256x512.Slices ![0, 0, 0] S1x256x512
  shapeCasts_S1x256x512_S256x512 : S1x256x512.ShapeCasts S256x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S4x512x512_S1x512x512_0_0_0 : S4x512x512.Slices ![0, 0, 0] S1x512x512
  shapeCasts_S1x512x512_S512x512 : S1x512x512.ShapeCasts S512x512
  slices_S4x512x1_S1x512x1_0_0_0 : S4x512x1.Slices ![0, 0, 0] S1x512x1
  shapeCasts_S1x512x1_S512x1 : S1x512x1.ShapeCasts S512x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536 : S_.BroadcastsInDim S65536 (![] : Fin 0 → Fin S65536.rank)
  bcast_S65536_S65536x1_0 : S65536.BroadcastsInDim S65536x1 (![0] : Fin 1 → Fin S65536x1.rank)
  slices_S4x256x512_S1x256x512_1_0_0 : S4x256x512.Slices ![1, 0, 0] S1x256x512
  slices_S4x512_S1x512_1_0 : S4x512.Slices ![1, 0] S1x512
  slices_S4x512x512_S1x512x512_1_0_0 : S4x512x512.Slices ![1, 0, 0] S1x512x512
  slices_S4x512x1_S1x512x1_1_0_0 : S4x512x1.Slices ![1, 0, 0] S1x512x1
  slices_S4x1_S1x1_1_0 : S4x1.Slices ![1, 0] S1x1
  slices_S4x256x512_S1x256x512_2_0_0 : S4x256x512.Slices ![2, 0, 0] S1x256x512
  slices_S4x512_S1x512_2_0 : S4x512.Slices ![2, 0] S1x512
  slices_S4x512x512_S1x512x512_2_0_0 : S4x512x512.Slices ![2, 0, 0] S1x512x512
  slices_S4x512x1_S1x512x1_2_0_0 : S4x512x1.Slices ![2, 0, 0] S1x512x1
  slices_S4x1_S1x1_2_0 : S4x1.Slices ![2, 0] S1x1
  slices_S4x256x512_S1x256x512_3_0_0 : S4x256x512.Slices ![3, 0, 0] S1x256x512
  slices_S4x512_S1x512_3_0 : S4x512.Slices ![3, 0] S1x512
  slices_S4x512x512_S1x512x512_3_0_0 : S4x512x512.Slices ![3, 0, 0] S1x512x512
  slices_S4x512x1_S1x512x1_3_0_0 : S4x512x1.Slices ![3, 0, 0] S1x512x1
  slices_S4x1_S1x1_3_0 : S4x1.Slices ![3, 0] S1x1
  dot_S65536x256_S256x512_S65536x512_1_0_0_1_n_n_wf : DotDims.WF S65536x256 S256x512 S65536x512 [1] [0] [0] [1] [] []
  dot_S65536x512_S512x512_S65536x512_1_0_0_1_n_n_wf : DotDims.WF S65536x512 S512x512 S65536x512 [1] [0] [0] [1] [] []
  dot_S65536x512_S512x1_S65536x1_1_0_0_1_n_n_wf : DotDims.WF S65536x512 S512x1 S65536x1 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf

class Facts : Prop extends Facts₀ where

variable [Facts]
-- ==== Proof.TypesMlp.lean ====
/-
  The function both programs compute, read at one output row.

  Every row carries a feature vector of 256 numbers and a species word. For each of the four species there is a
  three-layer perceptron: a first hidden layer of 512 units, unit `j` being `tanh (Σ_i x_i · W1[s,i,j] + b1[s,j])`,
  a second hidden layer of 512 units of the same form over the first layer's outputs, and a linear head
  `Σ_k h_k · W3[s,k,0] + b3[s,0]`. The row's result is the head of the species its word names: the words are
  tested in the order 0, 1, 2, 3, a later match overriding an earlier one, and a word that names no species leaves 0.
  All sums and products are those of the extended reals; no law beyond reading both programs at an index is used, so
  nothing here needs the inputs to be finite.
-/
import Idealize.ShloMosaic.PureOps.Ideal
import Idealize.ShloMosaic.Lib.ValueIdx

noncomputable section

namespace Cert.TypesMlp

open Idealize.ShloMosaic Idealize.ShloMosaic.ValueIdx
open scoped BigOperators

/-- First hidden layer of species `s` on a feature row `x`: unit `j` is `tanh (Σ_i x_i · W1[s,i,j] + b1[s,j])`. -/
def hid1 (W1 : FVec Ideal ⟨3, ![4, 256, 512]⟩ .f32) (B1 : FVec Ideal ⟨2, ![4, 512]⟩ .f32)
    (s : Fin 4) (x : Fin 256 → EReal) (j : Fin 512) : EReal :=
  Ideal.tanh ((∑ i : Fin 256, x i * W1 (ix3 s i j)) + B1 (ix2 s j))

/-- Second hidden layer of species `s` on the first layer's outputs `h`: unit `k` is
    `tanh (Σ_j h_j · W2[s,j,k] + b2[s,k])`. -/
def hid2 (W2 : FVec Ideal ⟨3, ![4, 512, 512]⟩ .f32) (B2 : FVec Ideal ⟨2, ![4, 512]⟩ .f32)
    (s : Fin 4) (h : Fin 512 → EReal) (k : Fin 512) : EReal :=
  Ideal.tanh ((∑ j : Fin 512, h j * W2 (ix3 s j k)) + B2 (ix2 s k))

/-- The linear head of species `s` on the second layer's outputs `h`: `Σ_k h_k · W3[s,k,0] + b3[s,0]`. -/
def head (W3 : FVec Ideal ⟨3, ![4, 512, 1]⟩ .f32) (B3 : FVec Ideal ⟨2, ![4, 1]⟩ .f32)
    (s : Fin 4) (h : Fin 512 → EReal) : EReal :=
  (∑ k : Fin 512, h k * W3 (ix3 s k (0 : Fin 1))) + B3 (ix2 s (0 : Fin 1))

/-- Species `s`'s perceptron on a feature row. -/
def energy (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32)
    (s : Fin 4) (x : Fin 256 → EReal) : EReal :=
  head W3 B3 s (hid2 W2 B2 s (hid1 W1 B1 s x))

/-- The choice by species word: species 0 is tried first over the initial 0, then 1, 2, 3, each match overriding
    what was chosen before; so the outermost test is the one for species 3. -/
def pick (a : BitVec 32) (y : Fin 4 → EReal) : EReal :=
  Scalar.select (IntOp.cmpi .eq a 3#32) (y 3)
    (Scalar.select (IntOp.cmpi .eq a 2#32) (y 2)
      (Scalar.select (IntOp.cmpi .eq a 1#32) (y 1)
        (Scalar.select (IntOp.cmpi .eq a 0#32) (y 0) (Ideal.ofBits .f32 0x00000000#32))))

/-- One row's result from its species word and its feature vector. -/
def rowOut (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32)
    (a : BitVec 32) (x : Fin 256 → EReal) : EReal :=
  pick a fun s => energy W1 B1 W2 B2 W3 B3 s x

/-- The whole result array `[65536, 1]` as one function of the argument arrays: entry `(n, 0)` is row `n`'s result. -/
def G (X : FVec Ideal ⟨2, ![65536, 256]⟩ .f32) (A : IVec ⟨1, ![65536]⟩ 32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32) :
    FVec Ideal ⟨2, ![65536, 1]⟩ .f32 :=
  fun i => rowOut W1 B1 W2 B2 W3 B3 (A (ix1 (i 0 : Fin 65536))) (fun k => X (ix2 (i 0 : Fin 65536) k))

/-- At `(n, 0)` the array reads row `n`'s result. -/
theorem G_apply (X : FVec Ideal ⟨2, ![65536, 256]⟩ .f32) (A : IVec ⟨1, ![65536]⟩ 32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32) (n : Fin 65536) (u : Fin 1) :
    G X A W1 B1 W2 B2 W3 B3 (ix2 n u)
      = rowOut W1 B1 W2 B2 W3 B3 (A (ix1 n)) (fun k => X (ix2 n k)) := rfl

end Cert.TypesMlp

end
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.KernelSpecies.lean ====
/-
  One species' perceptron as the kernel body computes it on a block of 1024 rows, read at one row.

  The body holds the 1024 x 256 block of features (already narrowed to the matrix unit's format, which at the
  ideal values changes nothing), and for the species at hand a 256 x 512 first-layer matrix, a 512-vector of first
  biases, and the species' slabs of the second-layer matrix [1, 512, 512], second biases [1, 512], head weights
  [1, 512, 1] and head bias [1, 1]. Each layer is a matrix product accumulated from zero, plus the bias laid out as
  a one-row matrix and repeated down the rows; the hidden layers pass through tanh. Read at row `p` this is the
  specification's perceptron on the block's row `p`, with the species' weights read off the slabs.
-/
import proofs.«178981_j46720654246527_1_alg».proof.Proof.Gen.KernelIdeal
import proofs.«178981_j46720654246527_1_alg».proof.Proof.TypesMlp
import proofs.«178981_j46720654246527_1_alg».proof.Proof.LibPlainMatmul
import Idealize.ShloMosaic.Lib.ValueLayout
import Idealize.ShloMosaic.Lib.Pipeline.Value
import Idealize.ShloMosaic.PureOps.Ideal.Laws

noncomputable section

namespace Cert.KernelIdeal.Species

open Cert.KernelIdeal Cert.KernelIdeal.Gen Idealize.ShloMosaic Idealize.ShloMosaic.ValueIdx
open scoped BigOperators

/-! ## One dense layer at a row and a unit -/

/-- A matrix product accumulated from zero plus a one-row bias repeated down the rows, read at `(p, j)`: the sum
    over the contracted axis of the products, plus the bias's entry `j`. -/
theorem dense_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![M, K]⟩ φ₁) (r : FVec Ideal ⟨2, ![K, N]⟩ φ₂) (bias : FVec Ideal ⟨2, ![1, N]⟩ .f32)
    (hb : (⟨2, ![1, N]⟩ : Shape).Broadcasts ⟨2, ![M, N]⟩) (p : Fin M) (j : Fin N) :
    addf (matmul D none l r (constant ⟨2, ![M, N]⟩ .f32 0x00000000#32)) (broadcastTo ⟨2, ![M, N]⟩ bias hb) (ix2 p j)
      = (∑ k : Fin K, l (ix2 p k) * r (ix2 k j)) + bias (ix2 (0 : Fin 1) j) := by
  show FloatOps.matmul D none l r (constant ⟨2, ![M, N]⟩ .f32 0x00000000#32) (ix2 p j)
      + broadcastTo ⟨2, ![M, N]⟩ bias hb (ix2 p j) = _
  rw [Cert.LibPlainMatmul.matmul_zero_apply D hlc hrc hln hrn hlb hrb none l r p j,
    broadcastTo_1b_ab_apply bias hb p j]

/-! ## The species' perceptron as the body spells it -/

variable {F : FTy → Type} [FloatOps F]

/-- The body's operations for one species, from the narrowed feature block, the species' first-layer matrix and
    bias vector, and its slabs of the later layers' parameters, to the `[1024, 1]` column of head values. -/
def blockOut (v1 : FVec F S1024x256 .bf16) (w1 : FVec F S256x512 .bf16) (b1 : FVec F S512 .f32)
    (w2s : Vec F S1x512x512 .f32) (b2s : Vec F S1x512 .f32) (w3s : Vec F S1x512x1 .f32) (b3s : Vec F S1x1 .f32) :
    FVec F S1024x1 .f32 :=
  addf
    (matmul dot_S1024x512_S512x1_S1024x1_1_0_0_1_n_n none
      (truncf .bf16 (tanh (addf
        (matmul dot_S1024x512_S512x512_S1024x512_1_0_0_1_n_n none
          (truncf .bf16 (tanh (addf
            (matmul dot_S1024x256_S256x512_S1024x512_1_0_0_1_n_n none v1 w1 (constant S1024x512 .f32 0x00000000#32))
            (broadcastTo S1024x512 (shapeCast S1x512 b1 shapeCasts_S512_S1x512) broadcasts_S1x512_S1024x512)))
            bitsLt_bf16_f32)
          (truncf .bf16 (shapeCast S512x512 w2s shapeCasts_S1x512x512_S512x512) bitsLt_bf16_f32)
          (constant S1024x512 .f32 0x00000000#32))
        (broadcastTo S1024x512
          (shapeCast S1x512 (shapeCast S512 b2s shapeCasts_S1x512_S512) shapeCasts_S512_S1x512)
          broadcasts_S1x512_S1024x512))) bitsLt_bf16_f32)
      (truncf .bf16 (shapeCast S512x1 w3s shapeCasts_S1x512x1_S512x1) bitsLt_bf16_f32)
      (constant S1024x1 .f32 0x00000000#32))
    (broadcastTo S1024x1 (shapeCast S1x1 (shapeCast S1 b3s shapeCasts_S1x1_S1) shapeCasts_S1_S1x1)
      broadcasts_S1x1_S1024x1)

/-- At the ideal values, row `p` of that column is the specification's perceptron of species `s` on the block's
    row `p`, whenever the matrices, vectors and slabs handed to the body hold species `s`'s parameters. -/
theorem blockOut_apply
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32) (s : Fin 4)
    (v1 : FVec Ideal S1024x256 .bf16) (w1 : FVec Ideal S256x512 .bf16) (b1 : FVec Ideal S512 .f32)
    (w2s : FVec Ideal S1x512x512 .f32) (b2s : FVec Ideal S1x512 .f32) (w3s : FVec Ideal S1x512x1 .f32)
    (b3s : FVec Ideal S1x1 .f32)
    (hw1 : ∀ (i : Fin 256) (j : Fin 512), w1 (ix2 i j) = W1 (ix3 s i j))
    (hb1 : ∀ j : Fin 512, b1 (ix1 j) = B1 (ix2 s j))
    (hw2 : ∀ (j : Fin 512) (k : Fin 512), w2s (ix3 (0 : Fin 1) j k) = W2 (ix3 s j k))
    (hb2 : ∀ k : Fin 512, b2s (ix2 (0 : Fin 1) k) = B2 (ix2 s k))
    (hw3 : ∀ k : Fin 512, w3s (ix3 (0 : Fin 1) k (0 : Fin 1)) = W3 (ix3 s k (0 : Fin 1)))
    (hb3 : b3s (ix2 (0 : Fin 1) (0 : Fin 1)) = B3 (ix2 s (0 : Fin 1)))
    (p : Fin 1024) :
    blockOut (F := Ideal) v1 w1 b1 w2s b2s w3s b3s (ix2 p (0 : Fin 1))
      = Cert.TypesMlp.energy W1 B1 W2 B2 W3 B3 s (fun i => v1 (ix2 p i)) := by
  unfold blockOut Cert.TypesMlp.energy Cert.TypesMlp.head
  refine (dense_apply dot_S1024x512_S512x1_S1024x1_1_0_0_1_n_n rfl rfl rfl rfl rfl rfl _ _ _ _ p (0 : Fin 1)).trans ?_
  -- the head: sum over the second layer's units, plus the head bias
  have hbias : shapeCast S1x1 (shapeCast S1 b3s shapeCasts_S1x1_S1) shapeCasts_S1_S1x1 (ix2 (0 : Fin 1) (0 : Fin 1))
      = B3 (ix2 s (0 : Fin 1)) := by
    rw [shapeCast_a_1a_apply _ shapeCasts_S1_S1x1 (0 : Fin 1) (0 : Fin 1),
      shapeCast_1a_a_apply b3s shapeCasts_S1x1_S1 (0 : Fin 1), hb3]
  rw [hbias]
  refine congrArg (· + B3 (ix2 s (0 : Fin 1))) (Finset.sum_congr rfl fun k _ => ?_)
  have hw : (truncf .bf16 (shapeCast S512x1 w3s shapeCasts_S1x512x1_S512x1) bitsLt_bf16_f32 : FVec Ideal S512x1 .bf16)
      (ix2 k (0 : Fin 1)) = W3 (ix3 s k (0 : Fin 1)) :=
    (shapeCast_1ab_ab_apply w3s shapeCasts_S1x512x1_S512x1 k (0 : Fin 1)).trans (hw3 k)
  rw [hw]
  refine congrArg (· * W3 (ix3 s k (0 : Fin 1))) ?_
  -- the second hidden layer at unit k
  unfold Cert.TypesMlp.hid2
  refine congrArg Ideal.tanh ?_
  refine (dense_apply dot_S1024x512_S512x512_S1024x512_1_0_0_1_n_n rfl rfl rfl rfl rfl rfl _ _ _ _ p k).trans ?_
  have hbias2 : shapeCast S1x512 (shapeCast S512 b2s shapeCasts_S1x512_S512) shapeCasts_S512_S1x512 (ix2 (0 : Fin 1) k)
      = B2 (ix2 s k) := by
    rw [shapeCast_a_1a_apply _ shapeCasts_S512_S1x512 (0 : Fin 1) k,
      shapeCast_1a_a_apply b2s shapeCasts_S1x512_S512 k, hb2]
  rw [hbias2]
  refine congrArg (· + B2 (ix2 s k)) (Finset.sum_congr rfl fun j _ => ?_)
  have hw' : (truncf .bf16 (shapeCast S512x512 w2s shapeCasts_S1x512x512_S512x512) bitsLt_bf16_f32 : FVec Ideal S512x512 .bf16)
      (ix2 j k) = W2 (ix3 s j k) :=
    (shapeCast_1ab_ab_apply w2s shapeCasts_S1x512x512_S512x512 j k).trans (hw2 j k)
  rw [hw']
  refine congrArg (· * W2 (ix3 s j k)) ?_
  -- the first hidden layer at unit j
  unfold Cert.TypesMlp.hid1
  refine congrArg Ideal.tanh ?_
  refine (dense_apply dot_S1024x256_S256x512_S1024x512_1_0_0_1_n_n rfl rfl rfl rfl rfl rfl _ _ _ _ p j).trans ?_
  have hbias1 : shapeCast S1x512 b1 shapeCasts_S512_S1x512 (ix2 (0 : Fin 1) j) = B1 (ix2 s j) := by
    rw [shapeCast_a_1a_apply b1 shapeCasts_S512_S1x512 (0 : Fin 1) j, hb1]
  rw [hbias1]
  refine congrArg (· + B1 (ix2 s j)) (Finset.sum_congr rfl fun i _ => ?_)
  rw [hw1 i j]

end Cert.KernelIdeal.Species

end
-- ==== Proof.LibSlabLoad.lean ====
/-
  A block loaded through a unit-stride rectangle that takes ONE slab along the leading axis (all of the other axes),
  read at an index given by coordinates: the loaded value at `(0, i, j)` (or `(0, j)`) is the source at `(p, i, j)`
  (or `(p, j)`), `p` the slab's offset. For any element type and any extents.
-/
import Idealize.ShloMosaic.Lib.Pipeline.FrameBody
import Idealize.ShloMosaic.Lib.ValueIdx

namespace Cert.LibSlabLoad

open Idealize.ShloMosaic Idealize.ShloMosaic.ValueIdx

variable {Val : EltTy → Type} {e : EltTy}

/-- Slab `p` of a rank-3 array `[n, a, b]`, loaded as a `[1, a, b]` block: the block at `(0, i, j)` is the array at `(p, i, j)`. -/
theorem ld_slab3 {n a b : ℕ} (X : (⟨3, ![n, a, b]⟩ : Shape).Idx → Val e) (p : ℕ)
    (inb : ∀ ax, (![p, 0, 0] : Fin 3 → ℕ) ax + (⟨3, ![1, a, b]⟩ : Shape).size ax ≤ (⟨3, ![n, a, b]⟩ : Shape).size ax)
    (i : Fin a) (j : Fin b) :
    View.ld X (Rect.unit ![p, 0, 0] (⟨3, ![1, a, b]⟩ : Shape).size inb) (ix3 (0 : Fin 1) i j)
      = X (ix3 (⟨p, inb 0⟩ : Fin n) i j) := by
  show X _ = X _
  refine congrArg X (funext fun ax => Fin.ext ?_)
  match ax with
  | ⟨0, _⟩ => show p + 1 * 0 = p; omega
  | ⟨1, _⟩ => show 0 + 1 * i.val = i.val; omega
  | ⟨2, _⟩ => show 0 + 1 * j.val = j.val; omega

/-- Row `p` of a matrix `[n, b]`, loaded as a `[1, b]` block: the block at `(0, j)` is the matrix at `(p, j)`. -/
theorem ld_row2 {n b : ℕ} (X : (⟨2, ![n, b]⟩ : Shape).Idx → Val e) (p : ℕ)
    (inb : ∀ ax, (![p, 0] : Fin 2 → ℕ) ax + (⟨2, ![1, b]⟩ : Shape).size ax ≤ (⟨2, ![n, b]⟩ : Shape).size ax)
    (j : Fin b) :
    View.ld X (Rect.unit ![p, 0] (⟨2, ![1, b]⟩ : Shape).size inb) (ix2 (0 : Fin 1) j)
      = X (ix2 (⟨p, inb 0⟩ : Fin n) j) := by
  show X _ = X _
  refine congrArg X (funext fun ax => Fin.ext ?_)
  match ax with
  | ⟨0, _⟩ => show p + 1 * 0 = p; omega
  | ⟨1, _⟩ => show 0 + 1 * j.val = j.val; omega

end Cert.LibSlabLoad
-- ==== Proof.KernelPayload.lean ====
/-
  What the kernel body leaves in its output block, read at one row.

  The body runs the four species one after the other. Each time it evaluates that species' perceptron on the whole
  block of 1024 rows and keeps, row by row, the new value where the row's species word equals the species and the
  value chosen so far elsewhere, starting from zeros. So the stored column at row `p` is the specification's choice
  by species word among the four perceptrons evaluated on the block's row `p`: the species' parameters are the
  slabs the body loads from the whole parameter arrays, slab `s` of each.
-/
import proofs.«178981_j46720654246527_1_alg».proof.Proof.Gen.KernelIdeal.Frame
import proofs.«178981_j46720654246527_1_alg».proof.Proof.KernelSpecies
import proofs.«178981_j46720654246527_1_alg».proof.Proof.LibSlabLoad

noncomputable section

namespace Cert.KernelIdeal.BlockValue

open Cert.KernelIdeal Cert.KernelIdeal.Gen Cert.KernelIdeal.Species Idealize.ShloMosaic Idealize.ShloMosaic.ValueIdx
open scoped BigOperators

/-! ## The body's stored value is a choice among four evaluations of one perceptron -/

section Spelling
variable {F : FTy → Type} [FloatOps F]

/-- Species 0's head values: the perceptron on the narrowed block with slab 0's first-layer matrix and bias. -/
theorem pay5_eq (v0 : Vec F S1024x256 .f32) (v5 : Vec F S1x256x512 .f32) (v8 : Vec F S1x512 .f32)
    (v16 : Vec F S1x512x512 .f32) (v19 : Vec F S1x512 .f32) (v27 : Vec F S1x512x1 .f32) (v30 : Vec F S1x1 .f32) :
    k0_pay5 v0 v5 v8 v16 v19 v27 v30
      = blockOut (k0_pay2 v0) (truncf .bf16 (shapeCast S256x512 v5 shapeCasts_S1x256x512_S256x512) bitsLt_bf16_f32)
          (shapeCast S512 v8 shapeCasts_S1x512_S512) v16 v19 v27 v30 := rfl

/-- After species 0 and 1: species 1's head values where the word is 1, else species 0's where it is 0, else the
    initial column. -/
theorem pay6_eq (v1 : FVec F S1024x256 .bf16) (v3 : IVec S1024x1 32) (v4 v35 : FVec F S1024x1 .f32)
    (v39 : Vec F S1x256x512 .f32) (v42 : Vec F S1x512 .f32) (v50 : Vec F S1x512x512 .f32) (v53 : Vec F S1x512 .f32)
    (v61 : Vec F S1x512x1 .f32) (v64 : Vec F S1x1 .f32) :
    k0_pay6 v1 v3 v4 v35 v39 v42 v50 v53 v61 v64
      = select (cmpi .eq v3 (broadcast S1024x1 1#32))
          (blockOut v1 (truncf .bf16 (shapeCast S256x512 v39 shapeCasts_S1x256x512_S256x512) bitsLt_bf16_f32)
            (shapeCast S512 v42 shapeCasts_S1x512_S512) v50 v53 v61 v64)
          (select (cmpi .eq v3 (broadcast S1024x1 0#32)) v35 v4) := rfl

/-- After species 2: its head values where the word is 2, else what was chosen before. -/
theorem pay7_eq (v1 : FVec F S1024x256 .bf16) (v3 : IVec S1024x1 32) (v72 : FVec F S1024x1 .f32)
    (v73 : Vec F S1x256x512 .f32) (v76 : Vec F S1x512 .f32) (v84 : Vec F S1x512x512 .f32) (v87 : Vec F S1x512 .f32)
    (v95 : Vec F S1x512x1 .f32) (v98 : Vec F S1x1 .f32) :
    k0_pay7 v1 v3 v72 v73 v76 v84 v87 v95 v98
      = select (cmpi .eq v3 (broadcast S1024x1 2#32))
          (blockOut v1 (truncf .bf16 (shapeCast S256x512 v73 shapeCasts_S1x256x512_S256x512) bitsLt_bf16_f32)
            (shapeCast S512 v76 shapeCasts_S1x512_S512) v84 v87 v95 v98)
          v72 := rfl

/-- After species 3, the stored column: its head values where the word is 3, else what was chosen before. -/
theorem pay1_eq (v1 : FVec F S1024x256 .bf16) (v3 : IVec S1024x1 32) (v106 : FVec F S1024x1 .f32)
    (v109 : FVec F S256x512 .bf16) (v111 : FVec F S512 .f32) (v118 : Vec F S1x512x512 .f32) (v121 : Vec F S1x512 .f32)
    (v129 : Vec F S1x512x1 .f32) (v132 : Vec F S1x1 .f32) :
    k0_pay1 v1 v3 v106 v109 v111 v118 v121 v129 v132
      = select (cmpi .eq v3 (broadcast S1024x1 3#32)) (blockOut v1 v109 v111 v118 v121 v129 v132) v106 := rfl

end Spelling

/-! ## The slabs the body loads are the species' parameters -/

theorem hz2 : (![0, 0] : Fin 2 → Nat) = fun _ => 0 := funext fun a => by fin_cases a <;> rfl

/-- Slab `o` of the first-layer matrices, with its unit axis dropped, at `(i, j)` is `W1[o, i, j]`. -/
theorem w1_slab (x2 : Vec Ideal S4x256x512 .f32) (o : ℕ)
    (inb : ∀ a, (![o, 0, 0] : Fin 3 → ℕ) a + S1x256x512.size a ≤ S4x256x512.size a) (i : Fin 256) (j : Fin 512) :
    (truncf .bf16 (shapeCast S256x512 (View.ld x2 (Rect.unit (s := S4x256x512) ![o, 0, 0] S1x256x512.size inb))
        shapeCasts_S1x256x512_S256x512) bitsLt_bf16_f32 : FVec Ideal S256x512 .bf16) (ix2 i j)
      = x2 (ix3 (⟨o, inb 0⟩ : Fin 4) i j) :=
  (shapeCast_1ab_ab_apply _ shapeCasts_S1x256x512_S256x512 i j).trans (Cert.LibSlabLoad.ld_slab3 x2 o inb i j)

/-- Row `o` of a `[4, 512]` bias array, with its unit axis dropped, at `j` is the array at `(o, j)`. -/
theorem b_row (x3 : Vec Ideal S4x512 .f32) (o : ℕ)
    (inb : ∀ a, (![o, 0] : Fin 2 → ℕ) a + S1x512.size a ≤ S4x512.size a) (j : Fin 512) :
    shapeCast S512 (View.ld x3 (Rect.unit (s := S4x512) ![o, 0] S1x512.size inb)) shapeCasts_S1x512_S512 (ix1 j)
      = x3 (ix2 (⟨o, inb 0⟩ : Fin 4) j) :=
  (shapeCast_1a_a_apply _ shapeCasts_S1x512_S512 j).trans (Cert.LibSlabLoad.ld_row2 x3 o inb j)

/-! ## The stored column at a row -/

/-- Row `p` of what the body stores: the specification's row result from the block's species word at `p` and the
    block's feature row `p`, over the whole parameter arrays. -/
theorem out_apply (x0 : Vec Ideal S1024x256 .f32) (x1 : Vec Ideal S1024x1 .i32) (x2 : Vec Ideal S4x256x512 .f32)
    (x3 : Vec Ideal S4x512 .f32) (x4 : Vec Ideal S4x512x512 .f32) (x5 : Vec Ideal S4x512 .f32)
    (x6 : Vec Ideal S4x512x1 .f32) (x7 : Vec Ideal S4x1 .f32) (p : Fin 1024) :
    out0_8 (F := Ideal) x0 x1 x2 x3 x4 x5 x6 x7 (ix2 p (0 : Fin 1))
      = Cert.TypesMlp.rowOut x2 x3 x4 x5 x6 x7 (x1 (ix2 p (0 : Fin 1))) (fun i => x0 (ix2 p i)) := by
  unfold out0_8
  rw [View.canon_unit_zero hz2]
  simp only [View.ld_unit_zero (S := S1024x256) hz2, View.ld_unit_zero (S := S1024x1) hz2]
  rw [pay1_eq, pay7_eq, pay6_eq, pay5_eq]
  simp only [select_apply]
  rw [blockOut_apply x2 x3 x4 x5 x6 x7 3 _ _ _ _ _ _ _
        (fun i j => w1_slab x2 3 _ i j) (fun j => b_row x3 3 _ j)
        (fun j k => Cert.LibSlabLoad.ld_slab3 x4 3 _ j k) (fun k => Cert.LibSlabLoad.ld_row2 x5 3 _ k)
        (fun k => Cert.LibSlabLoad.ld_slab3 x6 3 _ k (0 : Fin 1)) (Cert.LibSlabLoad.ld_row2 x7 3 _ (0 : Fin 1)) p,
      blockOut_apply x2 x3 x4 x5 x6 x7 2 _ _ _ _ _ _ _
        (fun i j => w1_slab x2 2 _ i j) (fun j => b_row x3 2 _ j)
        (fun j k => Cert.LibSlabLoad.ld_slab3 x4 2 _ j k) (fun k => Cert.LibSlabLoad.ld_row2 x5 2 _ k)
        (fun k => Cert.LibSlabLoad.ld_slab3 x6 2 _ k (0 : Fin 1)) (Cert.LibSlabLoad.ld_row2 x7 2 _ (0 : Fin 1)) p,
      blockOut_apply x2 x3 x4 x5 x6 x7 1 _ _ _ _ _ _ _
        (fun i j => w1_slab x2 1 _ i j) (fun j => b_row x3 1 _ j)
        (fun j k => Cert.LibSlabLoad.ld_slab3 x4 1 _ j k) (fun k => Cert.LibSlabLoad.ld_row2 x5 1 _ k)
        (fun k => Cert.LibSlabLoad.ld_slab3 x6 1 _ k (0 : Fin 1)) (Cert.LibSlabLoad.ld_row2 x7 1 _ (0 : Fin 1)) p,
      blockOut_apply x2 x3 x4 x5 x6 x7 0 _ _ _ _ _ _ _
        (fun i j => w1_slab x2 0 _ i j) (fun j => b_row x3 0 _ j)
        (fun j k => Cert.LibSlabLoad.ld_slab3 x4 0 _ j k) (fun k => Cert.LibSlabLoad.ld_row2 x5 0 _ k)
        (fun k => Cert.LibSlabLoad.ld_slab3 x6 0 _ k (0 : Fin 1)) (Cert.LibSlabLoad.ld_row2 x7 0 _ (0 : Fin 1)) p]
  unfold k0_pay3
  rw [shapeCast_self]
  rfl

end Cert.KernelIdeal.BlockValue

end
-- ==== Proof.KernelBlocks.lean ====
/-
  From what each grid point writes back to the whole result array.

  The grid has 64 points; point `t` works on rows `1024·t … 1024·t + 1023`: its feature block and its block of
  species words are those rows of the feature array and of the species column, every parameter array is read whole
  at every point, and the point writes its 1024 results back to the same rows of the result column. The species
  column is the species vector laid out as `[65536, 1]` before the region. So the row `p` a point stores is the
  specification's row `1024·t + p`, the 64 blocks cover the result column, and the column ends holding the
  specification's array.
-/
import proofs.«178981_j46720654246527_1_alg».proof.Proof.Gen.KernelIdeal.Value
import proofs.«178981_j46720654246527_1_alg».proof.Proof.KernelPayload
import Idealize.ShloMosaic.Lib.StableHlo.Run
import Idealize.ShloMosaic.Lib.ValueLayout
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

/-- A vector of length `a` laid out as an `a × 1` column reads, at `(i, u)`, the vector at `i`: both sit at
    row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-! ## The index maps, decided over the 64 grid points -/

/-- The feature window, the species-word window and the result window all sit at block row `t`, block column 0. -/
theorem row_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- Every parameter window sits at block index 0 on every axis. -/
theorem whole_facts : ∀ t : Fin cfg0.N,
    (∀ a : Fin 3, win0_2.index t a = 0) ∧ (∀ a : Fin 2, win0_3.index t a = 0) ∧ (∀ a : Fin 3, win0_4.index t a = 0)
    ∧ (∀ a : Fin 2, win0_5.index t a = 0) ∧ (∀ a : Fin 3, win0_6.index t a = 0) ∧ (∀ a : Fin 2, win0_7.index t a = 0) :=
  (by decide +kernel : ∀ t : Fin grid0.N, _)

theorem point_lt (t : Fin cfg0.N) : t.val < 64 := by
  have h : t.val < cfg0.N := t.isLt
  have e : cfg0.N = 64 := N_0
  omega

variable (m : (ℓ : Loc nD τ sig) → Buf (Elt Ideal) ℓ) (ρ : Dev nD → PrngReg)

/-! ## The arrays the region finds, read through the windows' blocks -/

/-- The species column the region finds is the species vector laid out as a column. -/
theorem V_species (c : Dev nD) :
    (V m c main_v0 : S65536x1.Idx → BitVec 32)
      = shapeCast S65536x1 (m ((c : Thread nD τ).loc main_arg1)) shapeCasts_S65536_S65536x1 := by
  dsimp only [Gen.V, Gen.hostOps0]
  after_results
  rfl

/-- Row `p` of point `t`'s feature block is row `1024·t + p` of the feature array. -/
theorem features_apply (c : Dev nD) (t : Fin cfg0.N) (p : Fin 1024) (i : Fin 256) (n : Fin 65536)
    (hn : n.val = t.val * 1024 + p.val) :
    iblk m c 0 t (ix2 p i) = m ((c : Thread nD τ).loc main_arg0) (ix2 n i) := by
  show V m c main_arg0 (((cfg0.win 0).blk t).view.emb (ix2 p i)) = _
  rw [V_main_arg0]
  obtain ⟨e0, e1, -⟩ := row_facts t
  refine congrArg (m ((c : Thread nD τ).loc main_arg0)) (funext fun a => Fin.ext ?_)
  match a with
  | ⟨0, _⟩ => show win0_0.index t (0 : Fin 2) * 1024 + 1 * p.val = n.val; omega
  | ⟨1, _⟩ => show win0_0.index t (1 : Fin 2) * 256 + 1 * i.val = i.val; omega

/-- Row `p` of point `t`'s block of species words is the species vector at `1024·t + p`. -/
theorem species_apply (c : Dev nD) (t : Fin cfg0.N) (p : Fin 1024) (n : Fin 65536)
    (hn : n.val = t.val * 1024 + p.val) :
    iblk m c 1 t (ix2 p (0 : Fin 1)) = m ((c : Thread nD τ).loc main_arg1) (ix1 n) := by
  show V m c main_v0 (((cfg0.win 1).blk t).view.emb (ix2 p (0 : Fin 1))) = _
  obtain ⟨-, -, e0, e1, -⟩ := row_facts t
  have hemb : ((cfg0.win 1).blk t).view.emb (ix2 p (0 : Fin 1)) = ix2 n (0 : Fin 1) := by
    funext a; apply Fin.ext
    match a with
    | ⟨0, _⟩ => show win0_1.index t (0 : Fin 2) * 1024 + 1 * p.val = n.val; omega
    | ⟨1, _⟩ => show win0_1.index t (1 : Fin 2) * 1 + 1 * 0 = 0; omega
  rw [hemb, V_species m c]
  exact shapeCast_a_a1_apply _ shapeCasts_S65536_S65536x1 n (0 : Fin 1)

/-- Window 2's block is the whole of its array at every point: the region reads argument 2 as launched. -/
theorem iblk2_eq (c : Dev nD) (t : Fin cfg0.N) : iblk m c 2 t = m ((c : Thread nD τ).loc main_arg2) := by
  funext y
  show V m c main_arg2 (((cfg0.win 2).blk t).view.emb y) = _
  rw [V_main_arg2]
  have h := (whole_facts t).1
  refine congrArg (m ((c : Thread nD τ).loc main_arg2)) (funext fun a => Fin.ext ?_)
  match a with
    | ⟨0, _⟩ => show win0_2.index t (0 : Fin 3) * 4 + 1 * (y 0).val = (y 0).val; have := h 0; omega
    | ⟨1, _⟩ => show win0_2.index t (1 : Fin 3) * 256 + 1 * (y 1).val = (y 1).val; have := h 1; omega
    | ⟨2, _⟩ => show win0_2.index t (2 : Fin 3) * 512 + 1 * (y 2).val = (y 2).val; have := h 2; omega

/-- Window 3's block is the whole of its array at every point: the region reads argument 3 as launched. -/
theorem iblk3_eq (c : Dev nD) (t : Fin cfg0.N) : iblk m c 3 t = m ((c : Thread nD τ).loc main_arg3) := by
  funext y
  show V m c main_arg3 (((cfg0.win 3).blk t).view.emb y) = _
  rw [V_main_arg3]
  have h := (whole_facts t).2.1
  refine congrArg (m ((c : Thread nD τ).loc main_arg3)) (funext fun a => Fin.ext ?_)
  match a with
    | ⟨0, _⟩ => show win0_3.index t (0 : Fin 2) * 4 + 1 * (y 0).val = (y 0).val; have := h 0; omega
    | ⟨1, _⟩ => show win0_3.index t (1 : Fin 2) * 512 + 1 * (y 1).val = (y 1).val; have := h 1; omega

/-- Window 4's block is the whole of its array at every point: the region reads argument 4 as launched. -/
theorem iblk4_eq (c : Dev nD) (t : Fin cfg0.N) : iblk m c 4 t = m ((c : Thread nD τ).loc main_arg4) := by
  funext y
  show V m c main_arg4 (((cfg0.win 4).blk t).view.emb y) = _
  rw [V_main_arg4]
  have h := (whole_facts t).2.2.1
  refine congrArg (m ((c : Thread nD τ).loc main_arg4)) (funext fun a => Fin.ext ?_)
  match a with
    | ⟨0, _⟩ => show win0_4.index t (0 : Fin 3) * 4 + 1 * (y 0).val = (y 0).val; have := h 0; omega
    | ⟨1, _⟩ => show win0_4.index t (1 : Fin 3) * 512 + 1 * (y 1).val = (y 1).val; have := h 1; omega
    | ⟨2, _⟩ => show win0_4.index t (2 : Fin 3) * 512 + 1 * (y 2).val = (y 2).val; have := h 2; omega

/-- Window 5's block is the whole of its array at every point: the region reads argument 5 as launched. -/
theorem iblk5_eq (c : Dev nD) (t : Fin cfg0.N) : iblk m c 5 t = m ((c : Thread nD τ).loc main_arg5) := by
  funext y
  show V m c main_arg5 (((cfg0.win 5).blk t).view.emb y) = _
  rw [V_main_arg5]
  have h := (whole_facts t).2.2.2.1
  refine congrArg (m ((c : Thread nD τ).loc main_arg5)) (funext fun a => Fin.ext ?_)
  match a with
    | ⟨0, _⟩ => show win0_5.index t (0 : Fin 2) * 4 + 1 * (y 0).val = (y 0).val; have := h 0; omega
    | ⟨1, _⟩ => show win0_5.index t (1 : Fin 2) * 512 + 1 * (y 1).val = (y 1).val; have := h 1; omega

/-- Window 6's block is the whole of its array at every point: the region reads argument 6 as launched. -/
theorem iblk6_eq (c : Dev nD) (t : Fin cfg0.N) : iblk m c 6 t = m ((c : Thread nD τ).loc main_arg6) := by
  funext y
  show V m c main_arg6 (((cfg0.win 6).blk t).view.emb y) = _
  rw [V_main_arg6]
  have h := (whole_facts t).2.2.2.2.1
  refine congrArg (m ((c : Thread nD τ).loc main_arg6)) (funext fun a => Fin.ext ?_)
  match a with
    | ⟨0, _⟩ => show win0_6.index t (0 : Fin 3) * 4 + 1 * (y 0).val = (y 0).val; have := h 0; omega
    | ⟨1, _⟩ => show win0_6.index t (1 : Fin 3) * 512 + 1 * (y 1).val = (y 1).val; have := h 1; omega
    | ⟨2, _⟩ => show win0_6.index t (2 : Fin 3) * 1 + 1 * (y 2).val = (y 2).val; have := h 2; omega

/-- Window 7's block is the whole of its array at every point: the region reads argument 7 as launched. -/
theorem iblk7_eq (c : Dev nD) (t : Fin cfg0.N) : iblk m c 7 t = m ((c : Thread nD τ).loc main_arg7) := by
  funext y
  show V m c main_arg7 (((cfg0.win 7).blk t).view.emb y) = _
  rw [V_main_arg7]
  have h := (whole_facts t).2.2.2.2.2
  refine congrArg (m ((c : Thread nD τ).loc main_arg7)) (funext fun a => Fin.ext ?_)
  match a with
    | ⟨0, _⟩ => show win0_7.index t (0 : Fin 2) * 4 + 1 * (y 0).val = (y 0).val; have := h 0; omega
    | ⟨1, _⟩ => show win0_7.index t (1 : Fin 2) * 1 + 1 * (y 1).val = (y 1).val; have := h 1; omega

/-! ## What a point writes back, and the whole result -/

/-- Point `t` writes back block `t` of the specification's array of the arguments as launched. -/
theorem flushed_eq (c : Dev nD) (t : Fin cfg0.N) :
    (dats m 0 c).flushed 8 t = ((cfg0.win 8).blk t).view.read (Elt Ideal)
      (Cert.TypesMlp.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))) := by
  rw [Cert.KernelIdeal.Value.flushed8]
  funext y
  obtain ⟨p, u, rfl⟩ : ∃ (p : Fin 1024) (u : Fin 1), y = ix2 p u := ⟨y 0, y 1, eq_ix2 y⟩
  obtain rfl : u = 0 := Subsingleton.elim _ _
  have ht := point_lt t
  have hp := p.isLt
  let n : Fin 65536 := ⟨t.val * 1024 + p.val, by omega⟩
  have hn : n.val = t.val * 1024 + p.val := rfl
  obtain ⟨-, -, -, -, e0, e1⟩ := row_facts t
  have hemb : ((cfg0.win 8).blk t).view.emb (ix2 p (0 : Fin 1)) = ix2 n (0 : Fin 1) := by
    funext a; apply Fin.ext
    match a with
    | ⟨0, _⟩ => show win0_8.index t (0 : Fin 2) * 1024 + 1 * p.val = n.val; omega
    | ⟨1, _⟩ => show win0_8.index t (1 : Fin 2) * 1 + 1 * 0 = 0; omega
  show out0_8 (iblk m c 0 t) (iblk m c 1 t) (iblk m c 2 t) (iblk m c 3 t) (iblk m c 4 t) (iblk m c 5 t) (iblk m c 6 t)
      (iblk m c 7 t) (ix2 p (0 : Fin 1))
    = Cert.TypesMlp.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (((cfg0.win 8).blk t).view.emb (ix2 p (0 : Fin 1)))
  rw [hemb, Cert.TypesMlp.G_apply]
  refine (Cert.KernelIdeal.BlockValue.out_apply (iblk m c 0 t) (iblk m c 1 t) (iblk m c 2 t) (iblk m c 3 t)
    (iblk m c 4 t) (iblk m c 5 t) (iblk m c 6 t) (iblk m c 7 t) p).trans ?_
  have hrow : (fun i : Fin 256 => iblk m c 0 t (ix2 p i)) = fun k => m ((c : Thread nD τ).loc main_arg0) (ix2 n k) :=
    funext fun i => features_apply m c t p i n hn
  rw [iblk2_eq m c t, iblk3_eq m c t, iblk4_eq m c t, iblk5_eq m c t, iblk6_eq m c t, iblk7_eq m c t,
    species_apply m c t p n hn, hrow]

/-- An index of the result column is in point `t`'s block iff each coordinate is in the block's range on its axis. -/
theorem mem_blk (t : Fin cfg0.N) (i : S65536x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_v1).slice (win0_8.rect t)).set ↔ _
  rw [View.set_slice_whole, Rect.mem_set_unit]
  exact Iff.rfl

/-- Row `r` of the result column is in the block of point `r / 1024`: the 64 blocks cover the column. -/
theorem cover (i : S65536x1.Idx) :
    ∃ t : Fin cfg0.N, (cfg0.win 8).flush t = true ∧ i ∈ ((cfg0.win 8).blk t).view.set := by
  have hi0 : (i 0).val < 65536 := (i 0).isLt
  have hi1 : (i 1).val < 1 := (i 1).isLt
  have hN : cfg0.N = 64 := N_0
  obtain ⟨t, htv⟩ : ∃ t : Fin cfg0.N, t.val = (i 0).val / 1024 := ⟨⟨(i 0).val / 1024, by rw [hN]; omega⟩, rfl⟩
  obtain ⟨-, -, -, -, e0, e1⟩ := row_facts t
  refine ⟨t, flush0_8 t, ?_⟩
  rw [mem_blk]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1 ≤ (i 1).val ∧ (i 1).val < win0_8.index t (1 : Fin 2) * 1 + 1
    omega

/-- The result column after the run is the specification's array of the arguments as launched. -/
theorem final (c : Dev nD) : (dats m 0 c).arrAt 8 cfg0.N
      = (Cert.TypesMlp.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))) :=
  (dats m 0 c).arrAt_eq_of_cover 8 _ (fun t _ => flushed_eq m c t) cover

/-- The kernel's run: it terminates without a fault with the result column at the specification's array and the
    arguments unchanged. -/
theorem run : θ_run defs (onTc (τ := τ) (main (F := Ideal))) ⟨m, fun _ => 0, ρ⟩ fun r => ∀ c : Dev nD,
      r.2.mem ((c : Thread nD τ).loc main_v1)
        = (Cert.TypesMlp.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.ArrayValue

end
-- ==== Proof.RefValue.lean ====
/-
  The reference program is the per-row function `G`.

  The reference program computes, for each of the four species in turn, a three-layer perceptron on ALL 65536 rows —
  a matrix product of the feature array with the species' slice of `W1`, a bias row added to every row, `tanh`; the
  same again with `W2`, `b2`; a last product with the one-column slice of `W3` plus `b3` — and then keeps, row by row,
  the new column where the row's species word equals the species and the previous column elsewhere, starting from a
  column of zeros. Read at one entry `(n, 0)`, every stage depends on row `n` of the features and on the species' own
  slices of the weights only: a contraction's element `(n, j)` is the sum over `k` of the left operand at `(n, k)`
  times the right operand at `(k, j)`; a slice `[s:s+1, …]` followed by the reshape that drops its unit axis reads
  entry `(s, k, j)` of the argument at `(k, j)`; a bias row broadcast over the rows reads `(s, j)` at `(n, j)`.
  So the stages are, bottom up, `hid1`, `hid2` and `energy` of TypesMlp at species `s` and row `n`, the species
  tests are the comparisons of the row's word with the words 0, 1, 2, 3, and the four nested selects are `pick`.
  Only the index arithmetic of the slices and reshapes is proved here (a row-major position `k * 512 + j` with
  `j < 512` has quotient `k` and remainder `j`); no law of the extended reals is used.
-/
import proofs.«178981_j46720654246527_1_alg».proof.Proof.Gen.ReferenceIdeal.Read
import proofs.«178981_j46720654246527_1_alg».proof.Proof.TypesMlp
import Idealize.ShloMosaic.Lib.ValueIdx

noncomputable section

namespace Cert.ReferenceIdeal.RefValue

open Cert.ReferenceIdeal Cert.ReferenceIdeal.Read Idealize.ShloMosaic Idealize.ShloMosaic.ValueIdx
open scoped BigOperators

/-! ### Species 0

The three layers of species 0 read the weight and bias arrays at leading coordinate 0: the program takes the
slice `[0:1, …]` of each and drops the unit axis by a reshape, so the reshaped entry `(k, j)` is entry `(0, k, j)` of the
argument, and the bias row is broadcast over all 65536 rows. -/

/-- First hidden layer of species 0 at row `n`, unit `j`: the contraction runs over the 256 features of row `n` against
    column `j` of `W1[0]`, plus `b1[0, j]`, through `tanh`. It depends on row `n` of the features only. -/
theorem hid1_0 (X : FVec Ideal ⟨2, ![65536, 256]⟩ .f32)
    (W1 : FVec Ideal ⟨3, ![4, 256, 512]⟩ .f32) (B1 : FVec Ideal ⟨2, ![4, 512]⟩ .f32)
    (n : Fin 65536) (j : Fin 512) :
    val_main_v9 (F := Ideal) X W1 B1 (ix2 n j)
      = Cert.TypesMlp.hid1 W1 B1 (0 : Fin 4) (fun i => X (ix2 n i)) j := by
  have eX : ∀ k : Fin 256, lidx_main_v3 (ix2 n j) k = ix2 n k := fun k =>
    funext fun a => by match a with | ⟨0, _⟩ => rfl | ⟨1, _⟩ => rfl
  have eW : ∀ k : Fin 256, idx_main_v1 (idx_main_v2 (ridx_main_v3 (ix2 n j) k)) = ix3 (0 : Fin 4) k j := fun k =>
    funext fun a => Fin.ext (by
      have hk := k.isLt; have hj := j.isLt
      match a with
      | ⟨0, _⟩ => rfl
      | ⟨1, _⟩ => show (k.val * 512 + j.val) / 512 % 256 = k.val; omega
      | ⟨2, _⟩ => show (k.val * 512 + j.val) % 512 = j.val; omega)
  have eB : idx_main_v4 (idx_main_v5 (idx_main_v6 (idx_main_v7 (ix2 n j)))) = ix2 (0 : Fin 4) j :=
    funext fun a => Fin.ext (by
      have hj := j.isLt
      match a with
      | ⟨0, _⟩ => rfl
      | ⟨1, _⟩ => show j.val % 512 = j.val; omega)
  rw [val_main_v9_apply, val_main_v8_apply, val_main_v3_apply, val_main_v7_apply, val_main_v6_apply,
    val_main_v5_apply, val_main_v4_apply]
  simp only [val_main_v2_apply, val_main_v1_apply, eX, eW, eB]
  rfl

/-- Second hidden layer of species 0 at row `n`, unit `k`: the contraction runs over the 512 first-layer units of the
    same row against column `k` of `W2[0]`, plus `b2[0, k]`, through `tanh`. -/
theorem hid2_0 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (n : Fin 65536) (k : Fin 512) :
    val_main_v18 (F := Ideal) X W1 B1 W2 B2 (ix2 n k)
      = Cert.TypesMlp.hid2 W2 B2 (0 : Fin 4) (Cert.TypesMlp.hid1 W1 B1 (0 : Fin 4) (fun i => X (ix2 n i))) k := by
  have eH : ∀ j : Fin 512, lidx_main_v12 (ix2 n k) j = ix2 n j := fun j =>
    funext fun a => by match a with | ⟨0, _⟩ => rfl | ⟨1, _⟩ => rfl
  have eW : ∀ j : Fin 512, idx_main_v10 (idx_main_v11 (ridx_main_v12 (ix2 n k) j)) = ix3 (0 : Fin 4) j k := fun j =>
    funext fun a => Fin.ext (by
      have hk := k.isLt; have hj := j.isLt
      match a with
      | ⟨0, _⟩ => rfl
      | ⟨1, _⟩ => show (j.val * 512 + k.val) / 512 % 512 = j.val; omega
      | ⟨2, _⟩ => show (j.val * 512 + k.val) % 512 = k.val; omega)
  have eB : idx_main_v13 (idx_main_v14 (idx_main_v15 (idx_main_v16 (ix2 n k)))) = ix2 (0 : Fin 4) k :=
    funext fun a => Fin.ext (by
      have hk := k.isLt
      match a with
      | ⟨0, _⟩ => rfl
      | ⟨1, _⟩ => show k.val % 512 = k.val; omega)
  rw [val_main_v18_apply, val_main_v17_apply, val_main_v12_apply, val_main_v16_apply, val_main_v15_apply,
    val_main_v14_apply, val_main_v13_apply]
  simp only [val_main_v11_apply, val_main_v10_apply, eH, eW, eB, hid1_0]
  rfl

/-- The head of species 0 at row `n`: the contraction of the row's 512 second-layer units against the one column of
    `W3[0]`, plus `b3[0, 0]`. The result array has one column, so its column coordinate `u` plays no part. -/
theorem energy_0 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32)
    (n : Fin 65536) (u : Fin 1) :
    val_main_v26 (F := Ideal) X W1 B1 W2 B2 W3 B3 (ix2 n u)
      = Cert.TypesMlp.energy W1 B1 W2 B2 W3 B3 (0 : Fin 4) (fun i => X (ix2 n i)) := by
  have eH : ∀ k : Fin 512, lidx_main_v21 (ix2 n u) k = ix2 n k := fun k =>
    funext fun a => by match a with | ⟨0, _⟩ => rfl | ⟨1, _⟩ => rfl
  have eW : ∀ k : Fin 512, idx_main_v19 (idx_main_v20 (ridx_main_v21 (ix2 n u) k)) = ix3 (0 : Fin 4) k (0 : Fin 1) := fun k =>
    funext fun a => Fin.ext (by
      have hk := k.isLt; have hu := u.isLt
      match a with
      | ⟨0, _⟩ => rfl
      | ⟨1, _⟩ => show (k.val * 1 + u.val) / 1 % 512 = k.val; omega
      | ⟨2, _⟩ => rfl)
  have eB : idx_main_v22 (idx_main_v23 (idx_main_v24 (idx_main_v25 (ix2 n u)))) = ix2 (0 : Fin 4) (0 : Fin 1) :=
    funext fun a => Fin.ext (by
      match a with
      | ⟨0, _⟩ => rfl
      | ⟨1, _⟩ => rfl)
  rw [val_main_v26_apply, val_main_v21_apply, val_main_v25_apply, val_main_v24_apply, val_main_v23_apply,
    val_main_v22_apply]
  simp only [val_main_v20_apply, val_main_v19_apply, eH, eW, eB, hid2_0]
  rfl

/-- The test for species 0 at row `n`: the row's species word compared for equality with the word 0; the comparison is
    made on the 65536 words and then copied along the unit column axis. -/
theorem cond_0 (A : IVec ⟨1, ![65536]⟩ 32) (n : Fin 65536) (u : Fin 1) :
    val_main_v29 (F := Ideal) A (ix2 n u) = IntOp.cmpi .eq (A (ix1 n)) 0#32 := by
  have eA : idx_main_v29 (ix2 n u) = ix1 n := funext fun a => by match a with | ⟨0, _⟩ => rfl
  rw [val_main_v29_apply, val_main_v28_apply, val_main_v27_apply, val_main_c_apply, eA]

/-! ### Species 1

The three layers of species 1 read the weight and bias arrays at leading coordinate 1: the program takes the
slice `[1:2, …]` of each and drops the unit axis by a reshape, so the reshaped entry `(k, j)` is entry `(1, k, j)` of the
argument, and the bias row is broadcast over all 65536 rows. -/

/-- First hidden layer of species 1 at row `n`, unit `j`: the contraction runs over the 256 features of row `n` against
    column `j` of `W1[1]`, plus `b1[1, j]`, through `tanh`. It depends on row `n` of the features only. -/
theorem hid1_1 (X : FVec Ideal ⟨2, ![65536, 256]⟩ .f32)
    (W1 : FVec Ideal ⟨3, ![4, 256, 512]⟩ .f32) (B1 : FVec Ideal ⟨2, ![4, 512]⟩ .f32)
    (n : Fin 65536) (j : Fin 512) :
    val_main_v39 (F := Ideal) X W1 B1 (ix2 n j)
      = Cert.TypesMlp.hid1 W1 B1 (1 : Fin 4) (fun i => X (ix2 n i)) j := by
  have eX : ∀ k : Fin 256, lidx_main_v33 (ix2 n j) k = ix2 n k := fun k =>
    funext fun a => by match a with | ⟨0, _⟩ => rfl | ⟨1, _⟩ => rfl
  have eW : ∀ k : Fin 256, idx_main_v31 (idx_main_v32 (ridx_main_v33 (ix2 n j) k)) = ix3 (1 : Fin 4) k j := fun k =>
    funext fun a => Fin.ext (by
      have hk := k.isLt; have hj := j.isLt
      match a with
      | ⟨0, _⟩ => rfl
      | ⟨1, _⟩ => show (k.val * 512 + j.val) / 512 % 256 = k.val; omega
      | ⟨2, _⟩ => show (k.val * 512 + j.val) % 512 = j.val; omega)
  have eB : idx_main_v34 (idx_main_v35 (idx_main_v36 (idx_main_v37 (ix2 n j)))) = ix2 (1 : Fin 4) j :=
    funext fun a => Fin.ext (by
      have hj := j.isLt
      match a with
      | ⟨0, _⟩ => rfl
      | ⟨1, _⟩ => show j.val % 512 = j.val; omega)
  rw [val_main_v39_apply, val_main_v38_apply, val_main_v33_apply, val_main_v37_apply, val_main_v36_apply,
    val_main_v35_apply, val_main_v34_apply]
  simp only [val_main_v32_apply, val_main_v31_apply, eX, eW, eB]
  rfl

/-- Second hidden layer of species 1 at row `n`, unit `k`: the contraction runs over the 512 first-layer units of the
    same row against column `k` of `W2[1]`, plus `b2[1, k]`, through `tanh`. -/
theorem hid2_1 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (n : Fin 65536) (k : Fin 512) :
    val_main_v48 (F := Ideal) X W1 B1 W2 B2 (ix2 n k)
      = Cert.TypesMlp.hid2 W2 B2 (1 : Fin 4) (Cert.TypesMlp.hid1 W1 B1 (1 : Fin 4) (fun i => X (ix2 n i))) k := by
  have eH : ∀ j : Fin 512, lidx_main_v42 (ix2 n k) j = ix2 n j := fun j =>
    funext fun a => by match a with | ⟨0, _⟩ => rfl | ⟨1, _⟩ => rfl
  have eW : ∀ j : Fin 512, idx_main_v40 (idx_main_v41 (ridx_main_v42 (ix2 n k) j)) = ix3 (1 : Fin 4) j k := fun j =>
    funext fun a => Fin.ext (by
      have hk := k.isLt; have hj := j.isLt
      match a with
      | ⟨0, _⟩ => rfl
      | ⟨1, _⟩ => show (j.val * 512 + k.val) / 512 % 512 = j.val; omega
      | ⟨2, _⟩ => show (j.val * 512 + k.val) % 512 = k.val; omega)
  have eB : idx_main_v43 (idx_main_v44 (idx_main_v45 (idx_main_v46 (ix2 n k)))) = ix2 (1 : Fin 4) k :=
    funext fun a => Fin.ext (by
      have hk := k.isLt
      match a with
      | ⟨0, _⟩ => rfl
      | ⟨1, _⟩ => show k.val % 512 = k.val; omega)
  rw [val_main_v48_apply, val_main_v47_apply, val_main_v42_apply, val_main_v46_apply, val_main_v45_apply,
    val_main_v44_apply, val_main_v43_apply]
  simp only [val_main_v41_apply, val_main_v40_apply, eH, eW, eB, hid1_1]
  rfl

/-- The head of species 1 at row `n`: the contraction of the row's 512 second-layer units against the one column of
    `W3[1]`, plus `b3[1, 0]`. The result array has one column, so its column coordinate `u` plays no part. -/
theorem energy_1 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32)
    (n : Fin 65536) (u : Fin 1) :
    val_main_v56 (F := Ideal) X W1 B1 W2 B2 W3 B3 (ix2 n u)
      = Cert.TypesMlp.energy W1 B1 W2 B2 W3 B3 (1 : Fin 4) (fun i => X (ix2 n i)) := by
  have eH : ∀ k : Fin 512, lidx_main_v51 (ix2 n u) k = ix2 n k := fun k =>
    funext fun a => by match a with | ⟨0, _⟩ => rfl | ⟨1, _⟩ => rfl
  have eW : ∀ k : Fin 512, idx_main_v49 (idx_main_v50 (ridx_main_v51 (ix2 n u) k)) = ix3 (1 : Fin 4) k (0 : Fin 1) := fun k =>
    funext fun a => Fin.ext (by
      have hk := k.isLt; have hu := u.isLt
      match a with
      | ⟨0, _⟩ => rfl
      | ⟨1, _⟩ => show (k.val * 1 + u.val) / 1 % 512 = k.val; omega
      | ⟨2, _⟩ => rfl)
  have eB : idx_main_v52 (idx_main_v53 (idx_main_v54 (idx_main_v55 (ix2 n u)))) = ix2 (1 : Fin 4) (0 : Fin 1) :=
    funext fun a => Fin.ext (by
      match a with
      | ⟨0, _⟩ => rfl
      | ⟨1, _⟩ => rfl)
  rw [val_main_v56_apply, val_main_v51_apply, val_main_v55_apply, val_main_v54_apply, val_main_v53_apply,
    val_main_v52_apply]
  simp only [val_main_v50_apply, val_main_v49_apply, eH, eW, eB, hid2_1]
  rfl

/-- The test for species 1 at row `n`: the row's species word compared for equality with the word 1; the comparison is
    made on the 65536 words and then copied along the unit column axis. -/
theorem cond_1 (A : IVec ⟨1, ![65536]⟩ 32) (n : Fin 65536) (u : Fin 1) :
    val_main_v59 (F := Ideal) A (ix2 n u) = IntOp.cmpi .eq (A (ix1 n)) 1#32 := by
  have eA : idx_main_v59 (ix2 n u) = ix1 n := funext fun a => by match a with | ⟨0, _⟩ => rfl
  rw [val_main_v59_apply, val_main_v58_apply, val_main_v57_apply, val_main_c_0_apply, eA]

/-! ### Species 2

The three layers of species 2 read the weight and bias arrays at leading coordinate 2: the program takes the
slice `[2:3, …]` of each and drops the unit axis by a reshape, so the reshaped entry `(k, j)` is entry `(2, k, j)` of the
argument, and the bias row is broadcast over all 65536 rows. -/

/-- First hidden layer of species 2 at row `n`, unit `j`: the contraction runs over the 256 features of row `n` against
    column `j` of `W1[2]`, plus `b1[2, j]`, through `tanh`. It depends on row `n` of the features only. -/
theorem hid1_2 (X : FVec Ideal ⟨2, ![65536, 256]⟩ .f32)
    (W1 : FVec Ideal ⟨3, ![4, 256, 512]⟩ .f32) (B1 : FVec Ideal ⟨2, ![4, 512]⟩ .f32)
    (n : Fin 65536) (j : Fin 512) :
    val_main_v69 (F := Ideal) X W1 B1 (ix2 n j)
      = Cert.TypesMlp.hid1 W1 B1 (2 : Fin 4) (fun i => X (ix2 n i)) j := by
  have eX : ∀ k : Fin 256, lidx_main_v63 (ix2 n j) k = ix2 n k := fun k =>
    funext fun a => by match a with | ⟨0, _⟩ => rfl | ⟨1, _⟩ => rfl
  have eW : ∀ k : Fin 256, idx_main_v61 (idx_main_v62 (ridx_main_v63 (ix2 n j) k)) = ix3 (2 : Fin 4) k j := fun k =>
    funext fun a => Fin.ext (by
      have hk := k.isLt; have hj := j.isLt
      match a with
      | ⟨0, _⟩ => rfl
      | ⟨1, _⟩ => show (k.val * 512 + j.val) / 512 % 256 = k.val; omega
      | ⟨2, _⟩ => show (k.val * 512 + j.val) % 512 = j.val; omega)
  have eB : idx_main_v64 (idx_main_v65 (idx_main_v66 (idx_main_v67 (ix2 n j)))) = ix2 (2 : Fin 4) j :=
    funext fun a => Fin.ext (by
      have hj := j.isLt
      match a with
      | ⟨0, _⟩ => rfl
      | ⟨1, _⟩ => show j.val % 512 = j.val; omega)
  rw [val_main_v69_apply, val_main_v68_apply, val_main_v63_apply, val_main_v67_apply, val_main_v66_apply,
    val_main_v65_apply, val_main_v64_apply]
  simp only [val_main_v62_apply, val_main_v61_apply, eX, eW, eB]
  rfl

/-- Second hidden layer of species 2 at row `n`, unit `k`: the contraction runs over the 512 first-layer units of the
    same row against column `k` of `W2[2]`, plus `b2[2, k]`, through `tanh`. -/
theorem hid2_2 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (n : Fin 65536) (k : Fin 512) :
    val_main_v78 (F := Ideal) X W1 B1 W2 B2 (ix2 n k)
      = Cert.TypesMlp.hid2 W2 B2 (2 : Fin 4) (Cert.TypesMlp.hid1 W1 B1 (2 : Fin 4) (fun i => X (ix2 n i))) k := by
  have eH : ∀ j : Fin 512, lidx_main_v72 (ix2 n k) j = ix2 n j := fun j =>
    funext fun a => by match a with | ⟨0, _⟩ => rfl | ⟨1, _⟩ => rfl
  have eW : ∀ j : Fin 512, idx_main_v70 (idx_main_v71 (ridx_main_v72 (ix2 n k) j)) = ix3 (2 : Fin 4) j k := fun j =>
    funext fun a => Fin.ext (by
      have hk := k.isLt; have hj := j.isLt
      match a with
      | ⟨0, _⟩ => rfl
      | ⟨1, _⟩ => show (j.val * 512 + k.val) / 512 % 512 = j.val; omega
      | ⟨2, _⟩ => show (j.val * 512 + k.val) % 512 = k.val; omega)
  have eB : idx_main_v73 (idx_main_v74 (idx_main_v75 (idx_main_v76 (ix2 n k)))) = ix2 (2 : Fin 4) k :=
    funext fun a => Fin.ext (by
      have hk := k.isLt
      match a with
      | ⟨0, _⟩ => rfl
      | ⟨1, _⟩ => show k.val % 512 = k.val; omega)
  rw [val_main_v78_apply, val_main_v77_apply, val_main_v72_apply, val_main_v76_apply, val_main_v75_apply,
    val_main_v74_apply, val_main_v73_apply]
  simp only [val_main_v71_apply, val_main_v70_apply, eH, eW, eB, hid1_2]
  rfl

/-- The head of species 2 at row `n`: the contraction of the row's 512 second-layer units against the one column of
    `W3[2]`, plus `b3[2, 0]`. The result array has one column, so its column coordinate `u` plays no part. -/
theorem energy_2 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32)
    (n : Fin 65536) (u : Fin 1) :
    val_main_v86 (F := Ideal) X W1 B1 W2 B2 W3 B3 (ix2 n u)
      = Cert.TypesMlp.energy W1 B1 W2 B2 W3 B3 (2 : Fin 4) (fun i => X (ix2 n i)) := by
  have eH : ∀ k : Fin 512, lidx_main_v81 (ix2 n u) k = ix2 n k := fun k =>
    funext fun a => by match a with | ⟨0, _⟩ => rfl | ⟨1, _⟩ => rfl
  have eW : ∀ k : Fin 512, idx_main_v79 (idx_main_v80 (ridx_main_v81 (ix2 n u) k)) = ix3 (2 : Fin 4) k (0 : Fin 1) := fun k =>
    funext fun a => Fin.ext (by
      have hk := k.isLt; have hu := u.isLt
      match a with
      | ⟨0, _⟩ => rfl
      | ⟨1, _⟩ => show (k.val * 1 + u.val) / 1 % 512 = k.val; omega
      | ⟨2, _⟩ => rfl)
  have eB : idx_main_v82 (idx_main_v83 (idx_main_v84 (idx_main_v85 (ix2 n u)))) = ix2 (2 : Fin 4) (0 : Fin 1) :=
    funext fun a => Fin.ext (by
      match a with
      | ⟨0, _⟩ => rfl
      | ⟨1, _⟩ => rfl)
  rw [val_main_v86_apply, val_main_v81_apply, val_main_v85_apply, val_main_v84_apply, val_main_v83_apply,
    val_main_v82_apply]
  simp only [val_main_v80_apply, val_main_v79_apply, eH, eW, eB, hid2_2]
  rfl

/-- The test for species 2 at row `n`: the row's species word compared for equality with the word 2; the comparison is
    made on the 65536 words and then copied along the unit column axis. -/
theorem cond_2 (A : IVec ⟨1, ![65536]⟩ 32) (n : Fin 65536) (u : Fin 1) :
    val_main_v89 (F := Ideal) A (ix2 n u) = IntOp.cmpi .eq (A (ix1 n)) 2#32 := by
  have eA : idx_main_v89 (ix2 n u) = ix1 n := funext fun a => by match a with | ⟨0, _⟩ => rfl
  rw [val_main_v89_apply, val_main_v88_apply, val_main_v87_apply, val_main_c_1_apply, eA]

/-! ### Species 3

The three layers of species 3 read the weight and bias arrays at leading coordinate 3: the program takes the
slice `[3:4, …]` of each and drops the unit axis by a reshape, so the reshaped entry `(k, j)` is entry `(3, k, j)` of the
argument, and the bias row is broadcast over all 65536 rows. -/

/-- First hidden layer of species 3 at row `n`, unit `j`: the contraction runs over the 256 features of row `n` against
    column `j` of `W1[3]`, plus `b1[3, j]`, through `tanh`. It depends on row `n` of the features only. -/
theorem hid1_3 (X : FVec Ideal ⟨2, ![65536, 256]⟩ .f32)
    (W1 : FVec Ideal ⟨3, ![4, 256, 512]⟩ .f32) (B1 : FVec Ideal ⟨2, ![4, 512]⟩ .f32)
    (n : Fin 65536) (j : Fin 512) :
    val_main_v99 (F := Ideal) X W1 B1 (ix2 n j)
      = Cert.TypesMlp.hid1 W1 B1 (3 : Fin 4) (fun i => X (ix2 n i)) j := by
  have eX : ∀ k : Fin 256, lidx_main_v93 (ix2 n j) k = ix2 n k := fun k =>
    funext fun a => by match a with | ⟨0, _⟩ => rfl | ⟨1, _⟩ => rfl
  have eW : ∀ k : Fin 256, idx_main_v91 (idx_main_v92 (ridx_main_v93 (ix2 n j) k)) = ix3 (3 : Fin 4) k j := fun k =>
    funext fun a => Fin.ext (by
      have hk := k.isLt; have hj := j.isLt
      match a with
      | ⟨0, _⟩ => rfl
      | ⟨1, _⟩ => show (k.val * 512 + j.val) / 512 % 256 = k.val; omega
      | ⟨2, _⟩ => show (k.val * 512 + j.val) % 512 = j.val; omega)
  have eB : idx_main_v94 (idx_main_v95 (idx_main_v96 (idx_main_v97 (ix2 n j)))) = ix2 (3 : Fin 4) j :=
    funext fun a => Fin.ext (by
      have hj := j.isLt
      match a with
      | ⟨0, _⟩ => rfl
      | ⟨1, _⟩ => show j.val % 512 = j.val; omega)
  rw [val_main_v99_apply, val_main_v98_apply, val_main_v93_apply, val_main_v97_apply, val_main_v96_apply,
    val_main_v95_apply, val_main_v94_apply]
  simp only [val_main_v92_apply, val_main_v91_apply, eX, eW, eB]
  rfl

/-- Second hidden layer of species 3 at row `n`, unit `k`: the contraction runs over the 512 first-layer units of the
    same row against column `k` of `W2[3]`, plus `b2[3, k]`, through `tanh`. -/
theorem hid2_3 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (n : Fin 65536) (k : Fin 512) :
    val_main_v108 (F := Ideal) X W1 B1 W2 B2 (ix2 n k)
      = Cert.TypesMlp.hid2 W2 B2 (3 : Fin 4) (Cert.TypesMlp.hid1 W1 B1 (3 : Fin 4) (fun i => X (ix2 n i))) k := by
  have eH : ∀ j : Fin 512, lidx_main_v102 (ix2 n k) j = ix2 n j := fun j =>
    funext fun a => by match a with | ⟨0, _⟩ => rfl | ⟨1, _⟩ => rfl
  have eW : ∀ j : Fin 512, idx_main_v100 (idx_main_v101 (ridx_main_v102 (ix2 n k) j)) = ix3 (3 : Fin 4) j k := fun j =>
    funext fun a => Fin.ext (by
      have hk := k.isLt; have hj := j.isLt
      match a with
      | ⟨0, _⟩ => rfl
      | ⟨1, _⟩ => show (j.val * 512 + k.val) / 512 % 512 = j.val; omega
      | ⟨2, _⟩ => show (j.val * 512 + k.val) % 512 = k.val; omega)
  have eB : idx_main_v103 (idx_main_v104 (idx_main_v105 (idx_main_v106 (ix2 n k)))) = ix2 (3 : Fin 4) k :=
    funext fun a => Fin.ext (by
      have hk := k.isLt
      match a with
      | ⟨0, _⟩ => rfl
      | ⟨1, _⟩ => show k.val % 512 = k.val; omega)
  rw [val_main_v108_apply, val_main_v107_apply, val_main_v102_apply, val_main_v106_apply, val_main_v105_apply,
    val_main_v104_apply, val_main_v103_apply]
  simp only [val_main_v101_apply, val_main_v100_apply, eH, eW, eB, hid1_3]
  rfl

/-- The head of species 3 at row `n`: the contraction of the row's 512 second-layer units against the one column of
    `W3[3]`, plus `b3[3, 0]`. The result array has one column, so its column coordinate `u` plays no part. -/
theorem energy_3 (X : FVec Ideal ⟨2, ![65536, 256]⟩ .f32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32)
    (n : Fin 65536) (u : Fin 1) :
    val_main_v116 (F := Ideal) X W1 B1 W2 B2 W3 B3 (ix2 n u)
      = Cert.TypesMlp.energy W1 B1 W2 B2 W3 B3 (3 : Fin 4) (fun i => X (ix2 n i)) := by
  have eH : ∀ k : Fin 512, lidx_main_v111 (ix2 n u) k = ix2 n k := fun k =>
    funext fun a => by match a with | ⟨0, _⟩ => rfl | ⟨1, _⟩ => rfl
  have eW : ∀ k : Fin 512, idx_main_v109 (idx_main_v110 (ridx_main_v111 (ix2 n u) k)) = ix3 (3 : Fin 4) k (0 : Fin 1) := fun k =>
    funext fun a => Fin.ext (by
      have hk := k.isLt; have hu := u.isLt
      match a with
      | ⟨0, _⟩ => rfl
      | ⟨1, _⟩ => show (k.val * 1 + u.val) / 1 % 512 = k.val; omega
      | ⟨2, _⟩ => rfl)
  have eB : idx_main_v112 (idx_main_v113 (idx_main_v114 (idx_main_v115 (ix2 n u)))) = ix2 (3 : Fin 4) (0 : Fin 1) :=
    funext fun a => Fin.ext (by
      match a with
      | ⟨0, _⟩ => rfl
      | ⟨1, _⟩ => rfl)
  rw [val_main_v116_apply, val_main_v111_apply, val_main_v115_apply, val_main_v114_apply, val_main_v113_apply,
    val_main_v112_apply]
  simp only [val_main_v110_apply, val_main_v109_apply, eH, eW, eB, hid2_3]
  rfl

/-- The test for species 3 at row `n`: the row's species word compared for equality with the word 3; the comparison is
    made on the 65536 words and then copied along the unit column axis. -/
theorem cond_3 (A : IVec ⟨1, ![65536]⟩ 32) (n : Fin 65536) (u : Fin 1) :
    val_main_v119 (F := Ideal) A (ix2 n u) = IntOp.cmpi .eq (A (ix1 n)) 3#32 := by
  have eA : idx_main_v119 (ix2 n u) = ix1 n := funext fun a => by match a with | ⟨0, _⟩ => rfl
  rw [val_main_v119_apply, val_main_v118_apply, val_main_v117_apply, val_main_c_2_apply, eA]

/-! ### The four choices

Each of the reference's four choices is a pointwise select: where the species test holds the new head replaces what
was chosen so far, the first of them over the array of zeros. -/

/-- The array of zeros the choice starts from reads the zero word's value at every entry. -/
theorem zero_apply (n : Fin 65536) (u : Fin 1) :
    val_main_v0 (F := Ideal) (ix2 n u) = Ideal.ofBits .f32 0x00000000#32 := by
  rw [val_main_v0_apply, val_main_cst_apply, Ideal.ofBits_def]

/-- The reference program's result is the per-row function `G`: entry `(n, 0)` nests the four selects, the test for
    species 3 outermost, over the four heads of row `n` and the initial zero. -/
theorem ref_eq (X : FVec Ideal ⟨2, ![65536, 256]⟩ .f32) (A : IVec ⟨1, ![65536]⟩ 32)
    (W1 : FVec Ideal ⟨3, ![4, 256, 512]⟩ .f32) (B1 : FVec Ideal ⟨2, ![4, 512]⟩ .f32)
    (W2 : FVec Ideal ⟨3, ![4, 512, 512]⟩ .f32) (B2 : FVec Ideal ⟨2, ![4, 512]⟩ .f32)
    (W3 : FVec Ideal ⟨3, ![4, 512, 1]⟩ .f32) (B3 : FVec Ideal ⟨2, ![4, 1]⟩ .f32) :
    Cert.ReferenceIdeal.Read.val_main_v120 (F := Ideal) X A W1 B1 W2 B2 W3 B3
      = Cert.TypesMlp.G X A W1 B1 W2 B2 W3 B3 := by
  funext i
  obtain ⟨n, u, rfl⟩ : ∃ (n : Fin 65536) (u : Fin 1), i = ix2 n u := ⟨i 0, i 1, eq_ix2 i⟩
  rw [Cert.TypesMlp.G_apply, val_main_v120_apply, val_main_v90_apply, val_main_v60_apply, val_main_v30_apply,
    cond_3, cond_2, cond_1, cond_0, energy_3, energy_2, energy_1, energy_0, zero_apply]
  rfl

end Cert.ReferenceIdeal.RefValue

end
-- ==== Proof.lean ====
/-
  A per-species three-layer perceptron selected by a species word, as a tiled kernel and as a whole-array program.

  Both programs take 65536 feature rows of width 256, one species word per row, and for each of four species the
  parameters of a perceptron with two tanh hidden layers of width 512 and a scalar linear head. Row `n`'s result is
  the head of the species its word names, 0 if the word names none (Proof/TypesMlp.lean states this once, as the
  array `G` of the arguments).

  The kernel walks the rows in 64 blocks of 1024: at each block it evaluates all four perceptrons on the block — three
  matrix products accumulated from zero, each followed by the bias and, for the hidden layers, tanh — and keeps per
  row the value of the matching species. Its narrowing of the matrix products' operands to a shorter float format
  is the identity on the extended reals, so nothing is lost. Read at a row, the stored block is `G`'s rows
  (Proof/KernelSpecies.lean, Proof/KernelPayload.lean); the blocks cover the result column, which therefore ends
  holding `G` (Proof/KernelBlocks.lean). The reference evaluates the same four perceptrons on all rows at once and
  nests the same four choices; read at a row it is `G` as well (Proof/RefValue.lean). The two sides are the same
  sums over the same index sets, term for term, so no law of the extended reals that could fail at an infinity is
  used and the finiteness of the inputs is never opened. The kernel's idealization rewrote nothing, so it is
  preserved trivially; the three frames are the programs' runs with the results forgotten.
-/
import proofs.«178981_j46720654246527_1_alg».proof.Defs
import proofs.«178981_j46720654246527_1_alg».proof.Proof.Gen.Kernel
import proofs.«178981_j46720654246527_1_alg».proof.Proof.Gen.Kernel.Skeleton
import proofs.«178981_j46720654246527_1_alg».proof.Proof.Gen.Kernel.Launch
import proofs.«178981_j46720654246527_1_alg».proof.Proof.Gen.Kernel.Points
import proofs.«178981_j46720654246527_1_alg».proof.Proof.Gen.Kernel.Frame
import proofs.«178981_j46720654246527_1_alg».proof.Proof.Gen.KernelIdeal
import proofs.«178981_j46720654246527_1_alg».proof.Proof.Gen.KernelIdeal.Skeleton
import proofs.«178981_j46720654246527_1_alg».proof.Proof.Gen.KernelIdeal.Launch
import proofs.«178981_j46720654246527_1_alg».proof.Proof.Gen.KernelIdeal.Points
import proofs.«178981_j46720654246527_1_alg».proof.Proof.Gen.KernelIdeal.Frame
import proofs.«178981_j46720654246527_1_alg».proof.Proof.Gen.ReferenceIdeal
import proofs.«178981_j46720654246527_1_alg».proof.Proof.Gen.Pre_finite_inputs
import proofs.«178981_j46720654246527_1_alg».proof.Proof.Gen.KernelIdeal.Value
import proofs.«178981_j46720654246527_1_alg».proof.Proof.Gen.ReferenceIdeal.Run
import proofs.«178981_j46720654246527_1_alg».proof.Proof.Gen.ReferenceIdeal.Read
import proofs.«178981_j46720654246527_1_alg».proof.Proof.KernelBlocks
import proofs.«178981_j46720654246527_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments, the kernel's result column and the reference's result both end at
    the specification's array of those arguments. -/
theorem algebraic : Cert.algebraic_KernelIdeal_ReferenceIdeal := by
  intro m ρ m' ρ' _ hagree
  refine ⟨fun c => Cert.TypesMlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7⟩ := hagree c
  rw [(h c).1, Cert.ReferenceIdeal.Read.val_main_v120_eq, Cert.ReferenceIdeal.RefValue.ref_eq, a0, a1, a2, a3, a4, a5,
    a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
